-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x64x64 : Shape := ⟨4, ![64, 128, 64, 64]⟩
abbrev S_ : Shape := ⟨0, ![]⟩

class Facts : Prop where
  bcast_S_S64x128x64x64 : S_.BroadcastsInDim S64x128x64x64 (![] : Fin 0 → Fin S64x128x64x64.rank)
  reducesTo_S64x128x64x64_S_d0_1_2_3 : S64x128x64x64.ReducesTo [0, 1, 2, 3] S_
  h_S_ : 0 < S_.numel

variable [Facts]

def fn {F : FTy → Type} [FloatOps F] (main_arg0 : FVec F S64x128x64x64 .f32) : IVec S_ 1 :=
  let main_v0 : FVec F S64x128x64x64 .f32 := Host.absf main_arg0
  let main_cst : FVec F S_ .f32 := constant S_ .f32 0x7F800000#32
  let main_v1 : FVec F S64x128x64x64 .f32 := broadcastInDim S64x128x64x64 ![] bcast_S_S64x128x64x64 main_cst
  let main_v2 : IVec S64x128x64x64 1 := cmpf .olt main_v0 main_v1
  let main_c : IVec S_ 1 := constantI S_ 1 1#1
  let main_v3 : IVec S_ 1 := (fun x v => Host.reduce IntOp.andi x v reducesTo_S64x128x64x64_S_d0_1_2_3 h_S_) main_v2 main_c
  main_v3
-- ==== Kernel.lean ====
abbrev S64x128x64x64 : Shape := ⟨4, ![64, 128, 64, 64]⟩
abbrev S64x128x4096 : Shape := ⟨3, ![64, 128, 4096]⟩
abbrev S64x128x128 : Shape := ⟨3, ![64, 128, 128]⟩
abbrev S4x128x4096 : Shape := ⟨3, ![4, 128, 4096]⟩
abbrev S4x128x128 : Shape := ⟨3, ![4, 128, 128]⟩
abbrev S4x128 : Shape := ⟨2, ![4, 128]⟩
abbrev S4x128x1 : Shape := ⟨3, ![4, 128, 1]⟩

abbrev nBuf : Space → Nat
  | .hbm => 3
  | .vmem => 4
  | .smem => 0
  | _ => 0

abbrev bufTy : (tb : Table) → Fin (tcTables nBuf tb) → BufTy
  | .hbm, ⟨0, _⟩ => ⟨S64x128x64x64, .f32⟩
  | .hbm, ⟨1, _⟩ => ⟨S64x128x4096, .f32⟩
  | .hbm, ⟨2, _⟩ => ⟨S64x128x128, .f32⟩
  | .local _ .vmem, ⟨0, _⟩ => ⟨S4x128x4096, .f32⟩
  | .local _ .vmem, ⟨1, _⟩ => ⟨S4x128x4096, .f32⟩
  | .local _ .vmem, ⟨2, _⟩ => ⟨S4x128x128, .f32⟩
  | .local _ .vmem, ⟨3, _⟩ => ⟨S4x128x128, .f32⟩
  | _, _ => ⟨S64x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x128x64x64_S64x128x4096 : S64x128x64x64.ShapeCasts S64x128x4096
  inb_S4x128x4096_S4x128x4096_0_0_0 : ∀ a, (![0, 0, 0] : Fin 3 → Nat) a + S4x128x4096.size a ≤ S4x128x4096.size a
  h_S4x128x4096 : 0 < S4x128x4096.numel
  shapeCasts_S4x128x4096_S4x128x4096 : S4x128x4096.ShapeCasts S4x128x4096
  reduces_S4x128x4096_S4x128 : S4x128x4096.Reduces [2] S4x128
  shapeCasts_S4x128_S4x128x1 : S4x128.ShapeCasts S4x128x1
  broadcasts_S4x128x1_S4x128x4096 : S4x128x1.Broadcasts S4x128x4096
  bitsLt_bf16_f32 : FTy.bits .bf16 < FTy.bits .f32
  inb_S4x128x128_S4x128x128_0_0_0 : ∀ a, (![0, 0, 0] : Fin 3 → Nat) a + S4x128x128.size a ≤ S4x128x128.size a
  h_S4x128x128 : 0 < S4x128x128.numel
  dot_S4x128x4096_S4x128x4096_S4x128x128_2_2_1_1_0_0_wf : DotDims.WF S4x128x4096 S4x128x4096 S4x128x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x4096.size a ≤ S64x128x4096.size a
  hwx0_0 : ∀ i : grid0.Coords, EltTy.bits .f32 = 32 ∨ (Rect.block (s := S64x128x4096) S4x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x128.size a ≤ S64x128x128.size a
  hwx0_1 : ∀ i : grid0.Coords, EltTy.bits .f32 = 32 ∨ (Rect.block (s := S64x128x128) S4x128x128.size (cc0_transform_1 i) (hinb0_1 i)).WholeWords (EltTy.packing .f32)

variable [Facts₀]

def dot_S4x128x4096_S4x128x4096_S4x128x128_2_2_1_1_0_0 : DotDims S4x128x4096 S4x128x4096 S4x128x128 where
  lhsContracting := [2]
  rhsContracting := [2]
  lhsNonContracting := [1]
  rhsNonContracting := [1]
  lhsBatch := [0]
  rhsBatch := [0]
  wf := dot_S4x128x4096_S4x128x4096_S4x128x128_2_2_1_1_0_0_wf

abbrev win0_0 : Pipeline.Window sig grid0 :=
  Pipeline.Window.ofSpec (Memref.whole main_v0) S4x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x128x64x64 : Shape := ⟨4, ![64, 128, 64, 64]⟩
abbrev S64x128x4096 : Shape := ⟨3, ![64, 128, 4096]⟩
abbrev S_ : Shape := ⟨0, ![]⟩
abbrev S64x128 : Shape := ⟨2, ![64, 128]⟩
abbrev S64x128x1 : Shape := ⟨3, ![64, 128, 1]⟩
abbrev S64x128x128 : Shape := ⟨3, ![64, 128, 128]⟩

abbrev nBuf : Space → Nat
  | .hbm => 14
  | .vmem => 0
  | .smem => 0
  | _ => 0

abbrev bufTy : (tb : Table) → Fin (tcTables nBuf tb) → BufTy
  | .hbm, ⟨0, _⟩ => ⟨S64x128x64x64, .f32⟩
  | .hbm, ⟨1, _⟩ => ⟨S64x128x4096, .f32⟩
  | .hbm, ⟨2, _⟩ => ⟨S_, .f32⟩
  | .hbm, ⟨3, _⟩ => ⟨S64x128, .f32⟩
  | .hbm, ⟨4, _⟩ => ⟨S64x128x1, .f32⟩
  | .hbm, ⟨5, _⟩ => ⟨S_, .f32⟩
  | .hbm, ⟨6, _⟩ => ⟨S64x128x1, .f32⟩
  | .hbm, ⟨7, _⟩ => ⟨S64x128x1, .f32⟩
  | .hbm, ⟨8, _⟩ => ⟨S64x128x4096, .f32⟩
  | .hbm, ⟨9, _⟩ => ⟨S64x128x4096, .f32⟩
  | .hbm, ⟨10, _⟩ => ⟨S64x128x128, .f32⟩
  | .hbm, ⟨11, _⟩ => ⟨S_, .f32⟩
  | .hbm, ⟨12, _⟩ => ⟨S64x128x128, .f32⟩
  | .hbm, ⟨13, _⟩ => ⟨S64x128x128, .f32⟩
  | _, _ => ⟨S64x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S64x128x64x64_S64x128x4096 : S64x128x64x64.ShapeCasts S64x128x4096
  reducesTo_S64x128x4096_S64x128_d2 : S64x128x4096.ReducesTo [2] S64x128
  h_S_ : 0 < S_.numel
  bcast_S64x128_S64x128x1_0_1 : S64x128.BroadcastsInDim S64x128x1 (![0, 1] : Fin 2 → Fin S64x128x1.rank)
  bcast_S_S64x128x1 : S_.BroadcastsInDim S64x128x1 (![] : Fin 0 → Fin S64x128x1.rank)
  bcast_S64x128x1_S64x128x4096_0_1_2 : S64x128x1.BroadcastsInDim S64x128x4096 (![0, 1, 2] : Fin 3 → Fin S64x128x4096.rank)
  bcast_S_S64x128x128 : S_.BroadcastsInDim S64x128x128 (![] : Fin 0 → Fin S64x128x128.rank)
  dot_S64x128x4096_S64x128x4096_S64x128x128_2_2_1_1_0_0_wf : DotDims.WF S64x128x4096 S64x128x4096 S64x128x128 [2] [2] [1] [1] [0] [0]

variable [Facts₀]

def dot_S64x128x4096_S64x128x4096_S64x128x128_2_2_1_1_0_0 : DotDims S64x128x4096 S64x128x4096 S64x128x128 where
  lhsContracting := [2]
  rhsContracting := [2]
  lhsNonContracting := [1]
  rhsNonContracting := [1]
  lhsBatch := [0]
  rhsBatch := [0]
  wf := dot_S64x128x4096_S64x128x4096_S64x128x128_2_2_1_1_0_0_wf

class Facts : Prop extends Facts₀ where

variable [Facts]
-- ==== Proof.RowCovariance.lean ====
/-
  Covariance pooling, on the extended reals.

  A ROW is a function `Fin 4096 → EReal`: the 64 × 64 spatial positions of one channel of one batch
  element, flattened. Its MEAN is its sum divided by 4096, and the COVARIANCE of two rows `r`, `s` is

      (∑ k, (r k − mean r) · (s k − mean s)) · 2⁻¹².

  The covariance array of `x : [64, 128, 4096]` has, at `(b, c, d)`, the covariance of the rows
  `x[b, c, ·]` and `x[b, d, ·]`.

  Two float words occur: `0x45800000`, which denotes 4096 = 2¹², and `0x39800000`, which denotes
  2⁻¹² exactly (sign 0, exponent field 115 = 127 − 12, significand 0). The one law used anywhere below
  is that multiplying an extended real by 2⁻¹² is dividing it by 2¹²; it holds at the infinities
  too, so nothing here needs the rows to be finite. The second form of the covariance
  (`rowCov_eq_div`) is the same number written with the quotient and with the sums started from the
  zero word, which denotes 0.
-/
import Idealize.ShloMosaic.PureOps.Ideal
import Idealize.ShloMosaic.PureOps.Ideal.Laws
import Idealize.ShloMosaic.Lib.ValueIdx

noncomputable section

open scoped BigOperators

namespace Cert.Cov

open Idealize.ShloMosaic Idealize.ShloMosaic.ValueIdx

/-- The word `0x45800000` denotes the real 4096. -/
theorem ofBits_4096 : Ideal.ofBits .f32 0x45800000#32 = ((4096 : ℝ) : EReal) := by
  simp [Ideal.ofBits, Ideal.ieee, -EReal.coe_mul]; norm_num

/-- The word `0x39800000` denotes the real 1/4096. -/
theorem ofBits_inv4096 : Ideal.ofBits .f32 0x39800000#32 = ((1 / 4096 : ℝ) : EReal) := by
  simp [Ideal.ofBits, Ideal.ieee, -EReal.coe_mul]; norm_num

/-- Multiplying by 2⁻¹² is dividing by 2¹², at every extended real. -/
theorem scale_eq_div (y : EReal) :
    y * Ideal.ofBits .f32 0x39800000#32 = Ideal.div y (Ideal.ofBits .f32 0x45800000#32) := by
  rw [ofBits_4096, ofBits_inv4096, Ideal.div_coe (by norm_num : (4096 : ℝ) ≠ 0)]

/-- The mean of a row: its sum divided by 4096. -/
def rowMean (r : Fin 4096 → EReal) : EReal :=
  Ideal.div (∑ k, r k) (Ideal.ofBits .f32 0x45800000#32)

/-- The covariance of two rows: the sum of the products of their centred entries, scaled by 2⁻¹². -/
def rowCov (r s : Fin 4096 → EReal) : EReal :=
  (∑ k, (r k - rowMean r) * (s k - rowMean s)) * Ideal.ofBits .f32 0x39800000#32

/-- The same number with the scale written as a quotient by 4096 and each row sum started from the
    zero word. -/
theorem rowCov_eq_div (r s : Fin 4096 → EReal) :
    rowCov r s
      = Ideal.div
          (∑ k, (r k - Ideal.div (Ideal.ofBits .f32 0x00000000#32 + ∑ j, r j) (Ideal.ofBits .f32 0x45800000#32))
              * (s k - Ideal.div (Ideal.ofBits .f32 0x00000000#32 + ∑ j, s j) (Ideal.ofBits .f32 0x45800000#32)))
          (Ideal.ofBits .f32 0x45800000#32) := by
  unfold rowCov rowMean
  rw [scale_eq_div]
  simp only [Ideal.ofBits_zero_f32, zero_add]

/-- The covariance array of `x : [64, 128, 4096]`: at `(b, c, d)` the covariance of rows `(b, c)` and `(b, d)`. -/
def covArr (x : (⟨3, ![64, 128, 4096]⟩ : Shape).Idx → EReal) : (⟨3, ![64, 128, 128]⟩ : Shape).Idx → EReal :=
  fun i => rowCov (fun k => x (ix3 (i 0) (i 1) k)) (fun k => x (ix3 (i 0) (i 2) k))

end Cert.Cov

end
-- ==== Proof.BlockCovariance.lean ====
/-
  What the kernel body computes from one block, read at an index.

  A grid point holds a block `x : [4, 128, 4096]`: four batch elements, 128 channels, 4096 spatial
  positions. The body sums each row `x[p, c, ·]` over its 4096 positions, divides by 4096 (the row's
  mean, kept as a column `[4, 128, 1]`), spreads the mean back over the row and subtracts it, narrows
  the centred block to bf16 — no change on the extended reals —, contracts the centred block with
  itself over the positions, batch element by batch element, into a zero accumulator, and scales by
  2⁻¹². So its value at `(p, c, d)` is the covariance of the rows `x[p, c, ·]` and `x[p, d, ·]`
  (`payload_apply`). Each step that is not pointwise is read at an index by one lemma: the sum along
  the last axis (`laneSum_apply`), the column cast and the column broadcast (`castCol_apply`,
  `bcastCol_apply`), and the contraction as a sum over `Fin 4096` (`matmul_rows`).
-/
import proofs.«151725_j44865228374072_2_alg».proof.Proof.Gen.KernelIdeal.Skeleton
import proofs.«151725_j44865228374072_2_alg».proof.Proof.RowCovariance
import Idealize.ShloMosaic.Lib.Pipeline.Value
import Idealize.ShloMosaic.Lib.ValueIdx
import Idealize.ShloMosaic.PureOps.Ideal.Laws

noncomputable section

open scoped BigOperators

namespace Cert.KernelIdeal.Cov

open Cert.KernelIdeal Cert.KernelIdeal.Gen Idealize.ShloMosaic Idealize.ShloMosaic.ValueIdx

/-! ## The layout steps and the two reductions at an index -/

/-- The sum of a block along its last axis, at `(p, c)`: the sum of row `(p, c)` over its positions. -/
theorem laneSum_apply (v : FVec Ideal S4x128x4096 .f32) (p : Fin 4) (c : Fin 128) :
    multiReduction (F := Ideal) .add [2] S4x128 v 0x00000000#32 reduces_S4x128x4096_S4x128 (.inl rfl) rfl (ix2 p c)
      = ∑ k : Fin 4096, v (ix3 p c k) :=
  (Ideal.multiReduction_add_single v 0x00000000#32 reduces_S4x128x4096_S4x128 (.inl rfl) rfl (ix2 p c)).trans
    (Finset.sum_congr rfl fun k _ => congrArg v (funext fun a => Fin.ext (by
      match a with
      | ⟨0, _⟩ => rfl
      | ⟨1, _⟩ => rfl
      | ⟨2, _⟩ => rfl)))

/-- A `[4, 128]` array seen as a column `[4, 128, 1]`: entry `(p, c, 0)` is entry `(p, c)`. -/
theorem castCol_apply {α : Type} (v : S4x128.Idx → α) (p : Fin 4) (c : Fin 128) (z : Fin 1) :
    shapeCast S4x128x1 v shapeCasts_S4x128_S4x128x1 (ix3 p c z) = v (ix2 p c) :=
  shapeCast_apply v shapeCasts_S4x128_S4x128x1 (ix3 p c z) (ix2 p c) (by
    rw [Shape.rowMajor_val_two, Shape.rowMajor_val_three]
    show p.val * 128 + c.val = (p.val * 128 + c.val) * 1 + z.val
    have := z.isLt
    omega)

/-- A column `[4, 128, 1]` spread along the last axis: entry `(p, c, k)` is entry `(p, c, 0)`. -/
theorem bcastCol_apply {α : Type} (v : S4x128x1.Idx → α) (p : Fin 4) (c : Fin 128) (k : Fin 4096) :
    broadcastTo S4x128x4096 v broadcasts_S4x128x1_S4x128x4096 (ix3 p c k) = v (ix3 p c (0 : Fin 1)) :=
  broadcastTo_apply v broadcasts_S4x128x1_S4x128x4096 (ix3 p c k) (ix3 p c (0 : Fin 1)) (fun a => match a with
    | ⟨0, _⟩ => by show p.val = if (4 : Nat) = 1 then 0 else p.val; rw [if_neg (by decide)]
    | ⟨1, _⟩ => by show c.val = if (128 : Nat) = 1 then 0 else c.val; rw [if_neg (by decide)]
    | ⟨2, _⟩ => by show (0 : Nat) = if (1 : Nat) = 1 then 0 else k.val; rw [if_pos rfl])

/-! ## The contraction: operand indices, and the product as a sum over the positions -/

theorem lhs_0 (i : S4x128x128.Idx) (q : dot_S4x128x4096_S4x128x4096_S4x128x128_2_2_1_1_0_0.contr.Idx) :
    (dot_S4x128x4096_S4x128x4096_S4x128x128_2_2_1_1_0_0.lhsIdx i q 0).val = (i 0).val := by
  unfold DotDims.lhsIdx
  rw [dif_pos (show (0 : Fin S4x128x4096.rank) ∈ dot_S4x128x4096_S4x128x4096_S4x128x128_2_2_1_1_0_0.lhsBatch by decide)]
  rfl
theorem lhs_1 (i : S4x128x128.Idx) (q : dot_S4x128x4096_S4x128x4096_S4x128x128_2_2_1_1_0_0.contr.Idx) :
    (dot_S4x128x4096_S4x128x4096_S4x128x128_2_2_1_1_0_0.lhsIdx i q 1).val = (i 1).val := by
  unfold DotDims.lhsIdx
  rw [dif_neg (show ¬(1 : Fin S4x128x4096.rank) ∈ dot_S4x128x4096_S4x128x4096_S4x128x128_2_2_1_1_0_0.lhsBatch by decide), dif_pos (show (1 : Fin S4x128x4096.rank) ∈ dot_S4x128x4096_S4x128x4096_S4x128x128_2_2_1_1_0_0.lhsNonContracting by decide)]
  rfl
theorem lhs_2 (i : S4x128x128.Idx) (q : dot_S4x128x4096_S4x128x4096_S4x128x128_2_2_1_1_0_0.contr.Idx) :
    (dot_S4x128x4096_S4x128x4096_S4x128x128_2_2_1_1_0_0.lhsIdx i q 2).val = (q ⟨0, by decide⟩).val :=
  dot_S4x128x4096_S4x128x4096_S4x128x128_2_2_1_1_0_0.lhsIdx_val_of_single rfl i q
theorem rhs_0 (i : S4x128x128.Idx) (q : dot_S4x128x4096_S4x128x4096_S4x128x128_2_2_1_1_0_0.contr.Idx) :
    (dot_S4x128x4096_S4x128x4096_S4x128x128_2_2_1_1_0_0.rhsIdx i q 0).val = (i 0).val := by
  unfold DotDims.rhsIdx
  rw [dif_pos (show (0 : Fin S4x128x4096.rank) ∈ dot_S4x128x4096_S4x128x4096_S4x128x128_2_2_1_1_0_0.rhsBatch by decide)]
  rfl
theorem rhs_1 (i : S4x128x128.Idx) (q : dot_S4x128x4096_S4x128x4096_S4x128x128_2_2_1_1_0_0.contr.Idx) :
    (dot_S4x128x4096_S4x128x4096_S4x128x128_2_2_1_1_0_0.rhsIdx i q 1).val = (i 2).val := by
  unfold DotDims.rhsIdx
  rw [dif_neg (show ¬(1 : Fin S4x128x4096.rank) ∈ dot_S4x128x4096_S4x128x4096_S4x128x128_2_2_1_1_0_0.rhsBatch by decide), dif_pos (show (1 : Fin S4x128x4096.rank) ∈ dot_S4x128x4096_S4x128x4096_S4x128x128_2_2_1_1_0_0.rhsNonContracting by decide)]
  rfl
theorem rhs_2 (i : S4x128x128.Idx) (q : dot_S4x128x4096_S4x128x4096_S4x128x128_2_2_1_1_0_0.contr.Idx) :
    (dot_S4x128x4096_S4x128x4096_S4x128x128_2_2_1_1_0_0.rhsIdx i q 2).val = (q ⟨0, by decide⟩).val :=
  dot_S4x128x4096_S4x128x4096_S4x128x128_2_2_1_1_0_0.rhsIdx_val_of_single rfl i q

/-- The product of a block with itself over the positions, batch element by batch element, into a zero
    accumulator: at `(p, c, d)` the sum over the positions of row `(p, c)` times row `(p, d)`. -/
theorem matmul_rows (y : FVec Ideal S4x128x4096 .bf16) (p : Fin 4) (c d : Fin 128) :
    matmul dot_S4x128x4096_S4x128x4096_S4x128x128_2_2_1_1_0_0 none y y (constant (F := Ideal) S4x128x128 .f32 0x00000000#32) (ix3 p c d)
      = ∑ k : Fin 4096, y (ix3 p c k) * y (ix3 p d k) := by
  simp only [matmul]
  rw [Ideal.matmul_constant_zero_apply, ← Equiv.sum_comp (ValueIdx.contrEquiv1 dot_S4x128x4096_S4x128x4096_S4x128x128_2_2_1_1_0_0 4096 rfl rfl).symm]
  refine Finset.sum_congr rfl fun k _ => ?_
  have hk := ValueIdx.contrEquiv1_symm_val dot_S4x128x4096_S4x128x4096_S4x128x128_2_2_1_1_0_0 4096 rfl rfl k
  have el : dot_S4x128x4096_S4x128x4096_S4x128x128_2_2_1_1_0_0.lhsIdx (ix3 p c d) ((ValueIdx.contrEquiv1 dot_S4x128x4096_S4x128x4096_S4x128x128_2_2_1_1_0_0 4096 rfl rfl).symm k) = ix3 p c k := funext fun a => Fin.ext (by
    match a with
    | ⟨0, _⟩ => exact lhs_0 _ _
    | ⟨1, _⟩ => exact lhs_1 _ _
    | ⟨2, _⟩ => exact (lhs_2 _ _).trans hk)
  have er : dot_S4x128x4096_S4x128x4096_S4x128x128_2_2_1_1_0_0.rhsIdx (ix3 p c d) ((ValueIdx.contrEquiv1 dot_S4x128x4096_S4x128x4096_S4x128x128_2_2_1_1_0_0 4096 rfl rfl).symm k) = ix3 p d k := funext fun a => Fin.ext (by
    match a with
    | ⟨0, _⟩ => exact rhs_0 _ _
    | ⟨1, _⟩ => exact rhs_1 _ _
    | ⟨2, _⟩ => exact (rhs_2 _ _).trans hk)
  rw [el, er]

/-! ## The centred block and the payload -/

/-- A block with each row's mean subtracted, as the body computes it: the row sums as a column, divided
    by 4096, spread back along the rows, subtracted. -/
def centred (x : FVec Ideal S4x128x4096 .f32) : FVec Ideal S4x128x4096 .f32 :=
  subf x (broadcastTo S4x128x4096
    (divf (shapeCast S4x128x1 (multiReduction .add [2] S4x128 x 0x00000000#32 reduces_S4x128x4096_S4x128 (.inl rfl) rfl) shapeCasts_S4x128_S4x128x1)
      (broadcast S4x128x1 (Scalar.ofBits (F := Ideal) .f32 0x45800000#32)))
    broadcasts_S4x128x1_S4x128x4096)

/-- Its entry at `(p, c, k)`: the block's entry less the mean of row `(p, c)`. -/
theorem centred_apply (x : FVec Ideal S4x128x4096 .f32) (p : Fin 4) (c : Fin 128) (k : Fin 4096) :
    centred x (ix3 p c k) = x (ix3 p c k) - Cert.Cov.rowMean (fun j => x (ix3 p c j)) := by
  unfold centred Cert.Cov.rowMean
  rw [subf_apply, bcastCol_apply, divf_apply, castCol_apply, laneSum_apply]
  rfl

/-- The body's one stored value is the centred block, narrowed, contracted with itself into zero, scaled:
    the cast of the loaded block to its own shape is the identity. -/
theorem payload_eq (x0 : Vec Ideal S4x128x4096 .f32) :
    k0_pay1 (F := Ideal) x0
      = mulf (matmul dot_S4x128x4096_S4x128x4096_S4x128x128_2_2_1_1_0_0 none (truncf .bf16 (centred x0) bitsLt_bf16_f32) (truncf .bf16 (centred x0) bitsLt_bf16_f32)
            (constant S4x128x128 .f32 0x00000000#32))
          (broadcast S4x128x128 (Scalar.ofBits (F := Ideal) .f32 0x39800000#32)) := by
  unfold k0_pay1 centred
  simp only [shapeCast_self]

/-- THE PAYLOAD AT AN INDEX: at `(p, c, d)` the covariance of rows `(p, c)` and `(p, d)` of the block. -/
theorem payload_apply (x0 : Vec Ideal S4x128x4096 .f32) (p : Fin 4) (c d : Fin 128) :
    k0_pay1 (F := Ideal) x0 (ix3 p c d)
      = Cert.Cov.rowCov (fun k => x0 (ix3 p c k)) (fun k => x0 (ix3 p d k)) := by
  rw [payload_eq]
  show matmul dot_S4x128x4096_S4x128x4096_S4x128x128_2_2_1_1_0_0 none (truncf .bf16 (centred x0) bitsLt_bf16_f32) (truncf .bf16 (centred x0) bitsLt_bf16_f32)
      (constant (F := Ideal) S4x128x128 .f32 0x00000000#32) (ix3 p c d) * Ideal.ofBits .f32 0x39800000#32 = _
  rw [matmul_rows]
  unfold Cert.Cov.rowCov
  refine congrArg (· * Ideal.ofBits .f32 0x39800000#32) (Finset.sum_congr rfl fun k _ => ?_)
  show centred x0 (ix3 p c k) * centred x0 (ix3 p d k) = _
  rw [centred_apply, centred_apply]

end Cert.KernelIdeal.Cov

end
-- ==== Proof.ArrayCovariance.lean ====
/-
  From blocks to the array: after the run the kernel's result is the covariance array of the reshaped argument.

  The grid has 16 points; at point `t` the input window holds batch elements `4t … 4t + 3` of the reshaped
  array `[64, 128, 4096]` whole (all 128 channels, all 4096 positions), and the output window is batch
  elements `4t … 4t + 3` of the result `[64, 128, 128]`: both block indices are `(t, 0, 0)`. Row `(p, c)` of
  the input block is therefore row `(4t + p, c)` of the array, and by the payload's reading the block
  written back at `t` is block `t` of the covariance array. Batch element `b` lies in the block of point
  `b / 4`, so the sixteen blocks cover the result, and it ends as the covariance array — of the array the
  region was entered with, which the one host operation before it made by reshaping the argument.
-/
import proofs.«151725_j44865228374072_2_alg».proof.Proof.Gen.KernelIdeal.Value
import proofs.«151725_j44865228374072_2_alg».proof.Proof.BlockCovariance
import Idealize.ShloMosaic.Lib.Pipeline.Value
import Idealize.ShloMosaic.Lib.StableHlo.Run
import Idealize.ShloMosaic.Lib.Tactic

noncomputable section

open scoped BigOperators

namespace Cert.KernelIdeal.Cov

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-! ## Which part of the arrays a point holds -/

/-- At point `t` both windows' block index is `(t, 0, 0)` (decided over the 16 points). -/
theorem block_index : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

theorem point_lt (t : Fin cfg0.N) : t.val < 16 := lt_of_lt_of_eq t.isLt N_0

/-- Batch element `p` of point `t`'s blocks is batch element `4t + p` of the arrays. -/
def batchOf (t : Fin cfg0.N) (p : Fin 4) : Fin 64 :=
  ⟨4 * t.val + p.val, by have := point_lt t; have := p.isLt; omega⟩

/-- The input block at point `t`, at `(p, c, k)`, is the array the region was entered with at `(4t + p, c, k)`. -/
theorem iblk_apply (c : Dev nD) (t : Fin cfg0.N) (p : Fin 4) (ch : Fin 128) (k : Fin 4096) :
    (iblk m c 0 t : Vec Ideal S4x128x4096 .f32) (ix3 p ch k)
      = (V m c main_v0 : S64x128x4096.Idx → EReal) (ix3 (batchOf t p) ch k) := by
  obtain ⟨e0, e1, e2, -, -, -⟩ := block_index t
  unfold iblk
  rw [View.read_apply]
  show V m c main_v0 _ = V m c main_v0 _
  congr 1
  funext a
  apply Fin.ext
  match a with
  | ⟨0, _⟩ => show win0_0.index t (0 : Fin 3) * 4 + 1 * p.val = 4 * t.val + p.val; rw [e0]; omega
  | ⟨1, _⟩ => show win0_0.index t (1 : Fin 3) * 128 + 1 * ch.val = ch.val; rw [e1]; omega
  | ⟨2, _⟩ => show win0_0.index t (2 : Fin 3) * 4096 + 1 * k.val = k.val; rw [e2]; omega

/-- The output block at point `t`, at `(p, c, d)`, sits at `(4t + p, c, d)` of the result. -/
theorem out_emb (t : Fin cfg0.N) (p : Fin 4) (ch d : Fin 128) :
    ((cfg0.win 1).blk t).view.emb (ix3 p ch d) = (ix3 (batchOf t p) ch d : S64x128x128.Idx) := by
  obtain ⟨-, -, -, e0, e1, e2⟩ := block_index t
  funext a
  apply Fin.ext
  match a with
  | ⟨0, _⟩ => show win0_1.index t (0 : Fin 3) * 4 + 1 * p.val = 4 * t.val + p.val; rw [e0]; omega
  | ⟨1, _⟩ => show win0_1.index t (1 : Fin 3) * 128 + 1 * ch.val = ch.val; rw [e1]; omega
  | ⟨2, _⟩ => show win0_1.index t (2 : Fin 3) * 128 + 1 * d.val = d.val; rw [e2]; omega

/-! ## What a point writes back -/

/-- The body's value on point `t`'s input block, at `(p, c, d)`, is the covariance array at `(4t + p, c, d)`:
    the covariance of two rows of the block, which are rows of the array. -/
theorem block_apply (c : Dev nD) (t : Fin cfg0.N) (p : Fin 4) (ch d : Fin 128) :
    k0_pay1 (F := Ideal) (iblk m c 0 t) (ix3 p ch d)
      = Cert.Cov.covArr (V m c main_v0) (ix3 (batchOf t p) ch d) := by
  refine (payload_apply (iblk m c 0 t) p ch d).trans ?_
  show Cert.Cov.rowCov _ _
    = Cert.Cov.rowCov (fun k => (V m c main_v0 : S64x128x4096.Idx → EReal) (ix3 (batchOf t p) ch k))
        (fun k => (V m c main_v0 : S64x128x4096.Idx → EReal) (ix3 (batchOf t p) d k))
  exact congrArg₂ Cert.Cov.rowCov (funext fun k => iblk_apply m c t p ch k) (funext fun k => iblk_apply m c t p d k)

/-- WHAT POINT `t` WRITES BACK is block `t` of the covariance array of the array the region was entered with. -/
theorem flushed_eq (c : Dev nD) (t : Fin cfg0.N) :
    (dats m 0 c).flushed 1 t
      = ((cfg0.win 1).blk t).view.read (Elt Ideal) (Cert.Cov.covArr (V m c main_v0)) := by
  rw [Cert.KernelIdeal.Value.flushed1]
  unfold out0_1
  rw [View.canon_unit_zero zero_offsets]
  simp only [View.ld_unit_zero (S := S4x128x4096) zero_offsets]
  show (k0_pay1 (F := Ideal) (iblk m c 0 t) : S4x128x128.Idx → EReal)
    = fun y : S4x128x128.Idx => Cert.Cov.covArr (V m c main_v0) (((cfg0.win 1).blk t).view.emb y)
  funext y
  obtain ⟨p, ch, d, rfl⟩ : ∃ (p : Fin 4) (ch d : Fin 128), y = ix3 p ch d := ⟨y 0, y 1, y 2, eq_ix3 y⟩
  rw [out_emb]
  exact block_apply m c t p ch d

/-! ## The blocks cover the result -/

/-- An index of the result is in point `t`'s block iff each coordinate is in the block's range on its axis. -/
theorem mem_blk (t : Fin cfg0.N) (i : S64x128x128.Idx) :
    i ∈ ((cfg0.win 1).blk t).view.set
      ↔ ∀ a : Fin 3, win0_1.index t a * S4x128x128.size a ≤ (i a).val
          ∧ (i a).val < win0_1.index t a * S4x128x128.size a + S4x128x128.size a := by
  show i ∈ ((View.whole main_v1).slice (win0_1.rect t)).set ↔ _
  rw [View.set_slice_whole, Rect.mem_set_unit]
  exact Iff.rfl

/-- Every index of the result is in the block of the point that holds its batch element, `b / 4`. -/
theorem cover (i : S64x128x128.Idx) :
    ∃ t : Fin cfg0.N, (cfg0.win 1).flush t = true ∧ i ∈ ((cfg0.win 1).blk t).view.set := by
  have h0 : (i 0).val < 64 := (i 0).isLt
  have h1 : (i 1).val < 128 := (i 1).isLt
  have h2 : (i 2).val < 128 := (i 2).isLt
  have hN : cfg0.N = 16 := N_0
  have ht : (i 0).val / 4 < cfg0.N := by rw [hN]; omega
  obtain ⟨-, -, -, e0, e1, e2⟩ := block_index ⟨(i 0).val / 4, ht⟩
  refine ⟨⟨(i 0).val / 4, ht⟩, flush0_1 _, ?_⟩
  rw [mem_blk]
  intro a
  match a with
  | ⟨0, _⟩ =>
    show win0_1.index ⟨(i 0).val / 4, ht⟩ (0 : Fin 3) * 4 ≤ (i 0).val
      ∧ (i 0).val < win0_1.index ⟨(i 0).val / 4, ht⟩ (0 : Fin 3) * 4 + 4
    rw [e0]
    show (i 0).val / 4 * 4 ≤ (i 0).val ∧ (i 0).val < (i 0).val / 4 * 4 + 4
    omega
  | ⟨1, _⟩ =>
    show win0_1.index ⟨(i 0).val / 4, ht⟩ (1 : Fin 3) * 128 ≤ (i 1).val
      ∧ (i 1).val < win0_1.index ⟨(i 0).val / 4, ht⟩ (1 : Fin 3) * 128 + 128
    rw [e1]
    omega
  | ⟨2, _⟩ =>
    show win0_1.index ⟨(i 0).val / 4, ht⟩ (2 : Fin 3) * 128 ≤ (i 2).val
      ∧ (i 2).val < win0_1.index ⟨(i 0).val / 4, ht⟩ (2 : Fin 3) * 128 + 128
    rw [e2]
    omega

/-- THE RESULT ARRAY after the run is the covariance array of the array the region was entered with. -/
theorem final (c : Dev nD) : (dats m 0 c).arrAt 1 cfg0.N = Cert.Cov.covArr (V m c main_v0) :=
  (dats m 0 c).arrAt_eq_of_cover 1 (Cert.Cov.covArr (V m c main_v0)) (fun t _ => flushed_eq m c t) cover

/-! ## The array the region is entered with, and the run -/

/-- The one host operation before the region reshapes the argument `[64, 128, 64, 64]` to `[64, 128, 4096]`. -/
theorem entry_array (c : Dev nD) :
    (V m c main_v0 : S64x128x4096.Idx → EReal)
      = shapeCast S64x128x4096 (m ((c : Thread nD τ).loc main_arg0) : S64x128x64x64.Idx → EReal)
          shapeCasts_S64x128x64x64_S64x128x4096 := by
  dsimp only [V, hostOps0]
  after_results
  rfl

/-- THE RUN, READ: every weakly fair execution ends with the result at the covariance array of the reshaped
    argument, the argument unchanged. -/
theorem run : θ_run defs (onTc (τ := τ) (main (F := Ideal))) ⟨m, fun _ => 0, ρ⟩ fun r => ∀ c : Dev nD,
      r.2.mem ((c : Thread nD τ).loc main_v1)
        = Cert.Cov.covArr (shapeCast S64x128x4096 (m ((c : Thread nD τ).loc main_arg0) : S64x128x64x64.Idx → EReal)
            shapeCasts_S64x128x64x64_S64x128x4096)
      ∧ r.2.mem ((c : Thread nD τ).loc main_arg0) = m ((c : Thread nD τ).loc main_arg0) :=
  (θ_run defs _ _).mono (fun r h c =>
      ⟨(h c).1.trans ((final m c).trans (congrArg Cert.Cov.covArr (entry_array m c))), (h c).2⟩)
    (Cert.KernelIdeal.Value.run_blocks m ρ)

end Cert.KernelIdeal.Cov

end
-- ==== Proof.ReferenceCovariance.lean ====
/-
  The reference computes the covariance array of its reshaped argument.

  The host program reshapes `x : [64, 128, 64, 64]` to `[64, 128, 4096]`, sums every row from the zero
  word, divides by 4096 (kept as a column and spread back), subtracts, contracts the centred array with
  itself over the positions, batch element by batch element, and divides by 4096. Read at `(b, c, d)`,
  one operation at a time: the contraction is the sum over the positions `k` of the centred entries at
  `(b, c, k)` and `(b, d, k)`, and the mean subtracted from the entry at `(b, c, k)` is the sum of row
  `(b, c)` over 4096. That is the covariance of rows `(b, c)` and `(b, d)` in its quotient form.
-/
import proofs.«151725_j44865228374072_2_alg».proof.Proof.Gen.ReferenceIdeal.Read
import proofs.«151725_j44865228374072_2_alg».proof.Proof.RowCovariance

noncomputable section

open scoped BigOperators

namespace Cert.ReferenceIdeal.Cov

open Cert.ReferenceIdeal Cert.ReferenceIdeal.Gen Cert.ReferenceIdeal.Read Idealize.ShloMosaic Idealize.ShloMosaic.ValueIdx

/-- The left operand of the contraction at `(b, c, d)` and position `k` is read at `(b, c, k)`, -/
theorem left_index (b : Fin 64) (c d : Fin 128) (k : Fin 4096) : lidx_main_v7 (ix3 b c d) k = ix3 b c k :=
  funext fun a => Fin.ext (by
    match a with
    | ⟨0, _⟩ => rfl
    | ⟨1, _⟩ => rfl
    | ⟨2, _⟩ => rfl)

/-- the right operand at `(b, d, k)`, -/
theorem right_index (b : Fin 64) (c d : Fin 128) (k : Fin 4096) : ridx_main_v7 (ix3 b c d) k = ix3 b d k :=
  funext fun a => Fin.ext (by
    match a with
    | ⟨0, _⟩ => rfl
    | ⟨1, _⟩ => rfl
    | ⟨2, _⟩ => rfl)

/-- and the mean spread back to `(b, c, k)` sums the reshaped array over row `(b, c)`. -/
theorem mean_index (b : Fin 64) (c : Fin 128) (k j : Fin 4096) :
    idx_main_v1 (idx_main_v2 (idx_main_v5 (ix3 b c k))) j = ix3 b c j :=
  funext fun a => Fin.ext (by
    match a with
    | ⟨0, _⟩ => rfl
    | ⟨1, _⟩ => rfl
    | ⟨2, _⟩ => rfl)

/-- The centred array at `(b, c, k)`: the reshaped array's entry less the sum of row `(b, c)`, started from
    the zero word, over 4096. -/
theorem centred_apply (x0 : (⟨S64x128x64x64, .f32⟩ : BufTy).Contents (Elt Ideal)) (b : Fin 64) (c : Fin 128) (k : Fin 4096) :
    val_main_v6 (F := Ideal) x0 (ix3 b c k)
      = val_main_v0 (F := Ideal) x0 (ix3 b c k)
        - Ideal.div (Ideal.ofBits .f32 0x00000000#32 + ∑ j : Fin 4096, val_main_v0 (F := Ideal) x0 (ix3 b c j))
            (Ideal.ofBits .f32 0x45800000#32) := by
  rw [val_main_v6_apply, val_main_v5_apply, val_main_v4_apply, val_main_v2_apply, val_main_v3_apply,
    val_main_cst_0_apply, val_main_v1_apply, val_main_cst_apply]
  show val_main_v0 (F := Ideal) x0 (ix3 b c k)
      - Ideal.div (Ideal.ofBits .f32 0x00000000#32
          + ∑ j : Fin 4096, val_main_v0 (F := Ideal) x0 (idx_main_v1 (idx_main_v2 (idx_main_v5 (ix3 b c k))) j))
        (Ideal.ofBits .f32 0x45800000#32) = _
  exact congrArg (fun s => val_main_v0 (F := Ideal) x0 (ix3 b c k)
      - Ideal.div (Ideal.ofBits .f32 0x00000000#32 + s) (Ideal.ofBits .f32 0x45800000#32))
    (Finset.sum_congr rfl fun j _ => congrArg (val_main_v0 (F := Ideal) x0) (mean_index b c k j))

/-- THE REFERENCE'S RESULT is the covariance array of the reshaped argument. -/
theorem result_eq (x0 : (⟨S64x128x64x64, .f32⟩ : BufTy).Contents (Elt Ideal)) :
    val_main_v9 (F := Ideal) x0 = Cert.Cov.covArr (val_main_v0 (F := Ideal) x0) := by
  funext i
  obtain ⟨b, c, d, rfl⟩ : ∃ (b : Fin 64) (c d : Fin 128), i = ix3 b c d := ⟨i 0, i 1, i 2, eq_ix3 i⟩
  rw [val_main_v9_apply, val_main_v7_apply, val_main_v8_apply, val_main_cst_1_apply]
  show Ideal.div (∑ k : Fin 4096, val_main_v6 (F := Ideal) x0 (lidx_main_v7 (ix3 b c d) k)
        * val_main_v6 (F := Ideal) x0 (ridx_main_v7 (ix3 b c d) k)) (Ideal.ofBits .f32 0x45800000#32)
    = Cert.Cov.rowCov (fun k => val_main_v0 (F := Ideal) x0 (ix3 b c k)) (fun k => val_main_v0 (F := Ideal) x0 (ix3 b d k))
  rw [Cert.Cov.rowCov_eq_div]
  refine congrArg (fun s => Ideal.div s (Ideal.ofBits .f32 0x45800000#32)) (Finset.sum_congr rfl fun k _ => ?_)
  rw [left_index, right_index, centred_apply, centred_apply]

end Cert.ReferenceIdeal.Cov

end
-- ==== Proof.lean ====
/-
  Covariance pooling: the kernel and its reference compute one function on the extended reals.

  For `x : [64, 128, 64, 64]`, reshaped to `[64, 128, 4096]` (64 batch elements, 128 channels, 4096 spatial
  positions), both programs return the array `[64, 128, 128]` whose entry `(b, c, d)` is

      (1/4096) · ∑ k, (x[b, c, k] − mean x[b, c, ·]) · (x[b, d, k] − mean x[b, d, ·]),    mean r = (∑ k, r k) / 4096.

  The kernel does it four batch elements at a time over a grid of 16 points, narrows the centred block to bf16
  before the contraction (no change on the extended reals), contracts into a zero accumulator, and multiplies by the
  word for 2⁻¹²; the reference contracts the whole centred array on the host and divides by 4096. The two differ by
  one law, that multiplying an extended real by 2⁻¹² is dividing it by 2¹² (Proof/RowCovariance.lean), which holds
  at the infinities too: the precondition is never opened.

  Proof/BlockCovariance.lean reads the kernel body's value at an index; Proof/ArrayCovariance.lean goes from the
  sixteen blocks to the result array and reads the run; Proof/ReferenceCovariance.lean reads the reference's last
  stage. Here the five claims are assembled: the three frames are the generated ones (the reference's is its
  generated run with the result dropped), no rewrite was made when the kernel was idealized, and the value claim
  sets the two runs side by side at the same covariance array.
-/
import proofs.«151725_j44865228374072_2_alg».proof.Defs
import proofs.«151725_j44865228374072_2_alg».proof.Proof.Gen.Kernel
import proofs.«151725_j44865228374072_2_alg».proof.Proof.Gen.Kernel.Skeleton
import proofs.«151725_j44865228374072_2_alg».proof.Proof.Gen.Kernel.Launch
import proofs.«151725_j44865228374072_2_alg».proof.Proof.Gen.Kernel.Points
import proofs.«151725_j44865228374072_2_alg».proof.Proof.Gen.Kernel.Frame
import proofs.«151725_j44865228374072_2_alg».proof.Proof.Gen.KernelIdeal
import proofs.«151725_j44865228374072_2_alg».proof.Proof.Gen.KernelIdeal.Skeleton
import proofs.«151725_j44865228374072_2_alg».proof.Proof.Gen.KernelIdeal.Launch
import proofs.«151725_j44865228374072_2_alg».proof.Proof.Gen.KernelIdeal.Points
import proofs.«151725_j44865228374072_2_alg».proof.Proof.Gen.KernelIdeal.Frame
import proofs.«151725_j44865228374072_2_alg».proof.Proof.Gen.ReferenceIdeal
import proofs.«151725_j44865228374072_2_alg».proof.Proof.Gen.KernelIdeal.Value
import proofs.«151725_j44865228374072_2_alg».proof.Proof.Gen.ReferenceIdeal.Run
import proofs.«151725_j44865228374072_2_alg».proof.Proof.Gen.ReferenceIdeal.Read
import proofs.«151725_j44865228374072_2_alg».proof.Proof.Gen.Pre_finite_inputs
import proofs.«151725_j44865228374072_2_alg».proof.Proof.ArrayCovariance
import proofs.«151725_j44865228374072_2_alg».proof.Proof.ReferenceCovariance
import Idealize.ShloMosaic.Adequacy
import Idealize.ShloMosaic.Init

noncomputable section

namespace Cert.Proof

open Idealize.ShloMosaic Idealize.ShloMosaic.TcCoe Idealize.SL.Sem

/-- The kernel as printed runs, and leaves its argument as it was. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument as it was: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- On the extended reals the kernel's result array ends at the covariance array of the reshaped argument
    (Proof/ArrayCovariance.lean), and the reference's at its last stage, which is that covariance array too
    (Proof/ReferenceCovariance.lean), of arguments that agree. -/
theorem algebraic : Cert.algebraic_KernelIdeal_ReferenceIdeal := by
  intro m ρ m' ρ' _ hagree
  refine ⟨_, Cert.KernelIdeal.Cov.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Cov.result_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
